-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S300x50000 : Shape := ⟨2, ![300, 50000]⟩
abbrev S50000x300 : Shape := ⟨2, ![50000, 300]⟩
abbrev S_ : Shape := ⟨0, ![]⟩

class Facts : Prop where
  bcast_S_S300x50000 : S_.BroadcastsInDim S300x50000 (![] : Fin 0 → Fin S300x50000.rank)
  reducesTo_S300x50000_S_d0_1 : S300x50000.ReducesTo [0, 1] S_
  h_S_ : 0 < S_.numel
  bcast_S_S50000x300 : S_.BroadcastsInDim S50000x300 (![] : Fin 0 → Fin S50000x300.rank)
  reducesTo_S50000x300_S_d0_1 : S50000x300.ReducesTo [0, 1] S_

variable [Facts]

def fn {F : FTy → Type} [FloatOps F] (main_arg0 : IVec S4096 32) (main_arg1 : FVec F S300x50000 .f32) (main_arg2 : FVec F S50000x300 .f32) : IVec S_ 1 :=
  let main_v0 : FVec F S300x50000 .f32 := Host.absf main_arg1
  let main_cst : FVec F S_ .f32 := constant S_ .f32 0x7F800000#32
  let main_v1 : FVec F S300x50000 .f32 := broadcastInDim S300x50000 ![] bcast_S_S300x50000 main_cst
  let main_v2 : IVec S300x50000 1 := cmpf .olt main_v0 main_v1
  let main_c : IVec S_ 1 := constantI S_ 1 1#1
  let main_v3 : IVec S_ 1 := (fun x v => Host.reduce IntOp.andi x v reducesTo_S300x50000_S_d0_1 h_S_) main_v2 main_c
  let main_v4 : FVec F S50000x300 .f32 := Host.absf main_arg2
  let main_cst_0 : FVec F S_ .f32 := constant S_ .f32 0x7F800000#32
  let main_v5 : FVec F S50000x300 .f32 := broadcastInDim S50000x300 ![] bcast_S_S50000x300 main_cst_0
  let main_v6 : IVec S50000x300 1 := cmpf .olt main_v4 main_v5
  let main_c_1 : IVec S_ 1 := constantI S_ 1 1#1
  let main_v7 : IVec S_ 1 := (fun x v => Host.reduce IntOp.andi x v reducesTo_S50000x300_S_d0_1 h_S_) main_v6 main_c_1
  let main_v8 : IVec S_ 1 := andi main_v3 main_v7
  main_v8
-- ==== Kernel.lean ====
abbrev S4096 : Shape := ⟨1, ![4096]⟩
abbrev S300x50000 : Shape := ⟨2, ![300, 50000]⟩
abbrev S50000x300 : Shape := ⟨2, ![50000, 300]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x300 : Shape := ⟨2, ![4096, 300]⟩
abbrev S4096x384 : Shape := ⟨2, ![4096, 384]⟩
abbrev S51200x384 : Shape := ⟨2, ![51200, 384]⟩
abbrev S4096x51200 : Shape := ⟨2, ![4096, 51200]⟩
abbrev S1024x384 : Shape := ⟨2, ![1024, 384]⟩
abbrev S3200x384 : Shape := ⟨2, ![3200, 384]⟩
abbrev S1024x3200 : Shape := ⟨2, ![1024, 3200]⟩
abbrev S4096x50000 : Shape := ⟨2, ![4096, 50000]⟩

abbrev nBuf : Space → Nat
  | .hbm => 37
  | .vmem => 6
  | .smem => 0
  | _ => 0

abbrev bufTy : (tb : Table) → Fin (tcTables nBuf tb) → BufTy
  | .hbm, ⟨0, _⟩ => ⟨S4096, .i32⟩
  | .hbm, ⟨1, _⟩ => ⟨S300x50000, .f32⟩
  | .hbm, ⟨2, _⟩ => ⟨S50000x300, .f32⟩
  | .hbm, ⟨3, _⟩ => ⟨S50000x300, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x300, .f32⟩
  | .hbm, ⟨23, _⟩ => ⟨S4096x300, .i1⟩
  | .hbm, ⟨24, _⟩ => ⟨S_, .f32⟩
  | .hbm, ⟨25, _⟩ => ⟨S4096x300, .f32⟩
  | .hbm, ⟨26, _⟩ => ⟨S4096x300, .f32⟩
  | .hbm, ⟨27, _⟩ => ⟨S4096x300, .bf16⟩
  | .hbm, ⟨28, _⟩ => ⟨S_, .i32⟩
  | .hbm, ⟨29, _⟩ => ⟨S_, .bf16⟩
  | .hbm, ⟨30, _⟩ => ⟨S4096x384, .bf16⟩
  | .hbm, ⟨31, _⟩ => ⟨S50000x300, .bf16⟩
  | .hbm, ⟨32, _⟩ => ⟨S_, .i32⟩
  | .hbm, ⟨33, _⟩ => ⟨S_, .bf16⟩
  | .hbm, ⟨34, _⟩ => ⟨S51200x384, .bf16⟩
  | .hbm, ⟨35, _⟩ => ⟨S4096x51200, .f32⟩
  | .hbm, ⟨36, _⟩ => ⟨S4096x50000, .f32⟩
  | .local _ .vmem, ⟨0, _⟩ => ⟨S1024x384, .bf16⟩
  | .local _ .vmem, ⟨1, _⟩ => ⟨S1024x384, .bf16⟩
  | .local _ .vmem, ⟨2, _⟩ => ⟨S3200x384, .bf16⟩
  | .local _ .vmem, ⟨3, _⟩ => ⟨S3200x384, .bf16⟩
  | .local _ .vmem, ⟨4, _⟩ => ⟨S1024x3200, .f32⟩
  | .local _ .vmem, ⟨5, _⟩ => ⟨S1024x3200, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_c : Ref sig .tc := ⟨.hbm, 28, rfl⟩
abbrev main_call1_v0 : Ref sig .tc := ⟨.hbm, 29, rfl⟩
abbrev main_v3 : Ref sig .tc := ⟨.hbm, 30, rfl⟩
abbrev main_v4 : Ref sig .tc := ⟨.hbm, 31, rfl⟩
abbrev main_c_0 : Ref sig .tc := ⟨.hbm, 32, rfl⟩
abbrev main_call2_v0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3200x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S300x50000_S50000x300_1_0 : S300x50000.Transposes [1, 0] S50000x300
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x300_0 : S4096.BroadcastsInDim S4096x300 (![0] : Fin 1 → Fin S4096x300.rank)
  bcast_S_S4096x300 : S_.BroadcastsInDim S4096x300 (![] : Fin 0 → Fin S4096x300.rank)
  bitsLt_bf16_f32 : FTy.bits .bf16 < FTy.bits .f32
  pads_S4096x300_S4096x384_000_0840 : S4096x300.Pads (![0, 0] : Fin 2 → Nat) ![0, 84] ![0, 0] S4096x384
  pads_S50000x300_S51200x384_012000_0840 : S50000x300.Pads (![0, 0] : Fin 2 → Nat) ![1200, 84] ![0, 0] S51200x384
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S3200x384_S3200x384_0_0 : ∀ a, (![0, 0] : Fin 2 → Nat) a + S3200x384.size a ≤ S3200x384.size a
  h_S3200x384 : 0 < S3200x384.numel
  shapeCasts_S3200x384_S3200x384 : S3200x384.ShapeCasts S3200x384
  inb_S1024x3200_S1024x3200_0_0 : ∀ a, (![0, 0] : Fin 2 → Nat) a + S1024x3200.size a ≤ S1024x3200.size a
  h_S1024x3200 : 0 < S1024x3200.numel
  slices_S4096x51200_S4096x50000_0_0 : S4096x51200.Slices ![0, 0] S4096x50000
  gather_S50000x300_S4096x1_S4096x300_1_0_n_n_0_1_1300_wf : GatherDims.WF S50000x300 S4096x1 S4096x300 [1] [0] [] [0] [] 1 ![1, 300]
  dot_S1024x384_S3200x384_S1024x3200_1_1_0_0_n_n_wf : DotDims.WF S1024x384 S3200x384 S1024x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x384.size a ≤ S4096x384.size a
  hwx0_0 : ∀ i : grid0.Coords, EltTy.bits .bf16 = 32 ∨ (Rect.block (s := S4096x384) S1024x384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x384.size a ≤ S51200x384.size a
  hwx0_1 : ∀ i : grid0.Coords, EltTy.bits .bf16 = 32 ∨ (Rect.block (s := S51200x384) S3200x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3200.size a ≤ S4096x51200.size a
  hwx0_2 : ∀ i : grid0.Coords, EltTy.bits .f32 = 32 ∨ (Rect.block (s := S4096x51200) S1024x3200.size (cc0_transform_2 i) (hinb0_2 i)).WholeWords (EltTy.packing .f32)

variable [Facts₀]

def gather_S50000x300_S4096x1_S4096x300_1_0_n_n_0_1_1300 : GatherDims S50000x300 S4096x1 S4096x300 where
  offsetDims := [1]
  collapsedSliceDims := [0]
  operandBatchingDims := []
  startIndicesBatchingDims := []
  startIndexMap := [0]
  indexVectorDim := 1
  sliceSizes := ![1, 300]
  wf := gather_S50000x300_S4096x1_S4096x300_1_0_n_n_0_1_1300_wf
def dot_S1024x384_S3200x384_S1024x3200_1_1_0_0_n_n : DotDims S1024x384 S3200x384 S1024x3200 where
  lhsContracting := [1]
  rhsContracting := [1]
  lhsNonContracting := [0]
  rhsNonContracting := [0]
  lhsBatch := []
  rhsBatch := []
  wf := dot_S1024x384_S3200x384_S1024x3200_1_1_0_0_n_n_wf

abbrev win0_0 : Pipeline.Window sig grid0 :=
  Pipeline.Window.ofSpec (Memref.whole main_v3) S1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3200x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x3200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096 : Shape := ⟨1, ![4096]⟩
abbrev S300x50000 : Shape := ⟨2, ![300, 50000]⟩
abbrev S50000x300 : Shape := ⟨2, ![50000, 300]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x300 : Shape := ⟨2, ![4096, 300]⟩
abbrev S4096x50000 : Shape := ⟨2, ![4096, 50000]⟩

abbrev nBuf : Space → Nat
  | .hbm => 28
  | .vmem => 0
  | .smem => 0
  | _ => 0

abbrev bufTy : (tb : Table) → Fin (tcTables nBuf tb) → BufTy
  | .hbm, ⟨0, _⟩ => ⟨S4096, .i32⟩
  | .hbm, ⟨1, _⟩ => ⟨S300x50000, .f32⟩
  | .hbm, ⟨2, _⟩ => ⟨S50000x300, .f32⟩
  | .hbm, ⟨3, _⟩ => ⟨S50000x300, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x300, .f32⟩
  | .hbm, ⟨23, _⟩ => ⟨S4096x300, .i1⟩
  | .hbm, ⟨24, _⟩ => ⟨S_, .f32⟩
  | .hbm, ⟨25, _⟩ => ⟨S4096x300, .f32⟩
  | .hbm, ⟨26, _⟩ => ⟨S4096x300, .f32⟩
  | .hbm, ⟨27, _⟩ => ⟨S4096x50000, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  transposes_S300x50000_S50000x300_1_0 : S300x50000.Transposes [1, 0] S50000x300
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x300_0 : S4096.BroadcastsInDim S4096x300 (![0] : Fin 1 → Fin S4096x300.rank)
  bcast_S_S4096x300 : S_.BroadcastsInDim S4096x300 (![] : Fin 0 → Fin S4096x300.rank)
  gather_S50000x300_S4096x1_S4096x300_1_0_n_n_0_1_1300_wf : GatherDims.WF S50000x300 S4096x1 S4096x300 [1] [0] [] [0] [] 1 ![1, 300]
  dot_S4096x300_S50000x300_S4096x50000_1_1_0_0_n_n_wf : DotDims.WF S4096x300 S50000x300 S4096x50000 [1] [1] [0] [0] [] []

variable [Facts₀]

def gather_S50000x300_S4096x1_S4096x300_1_0_n_n_0_1_1300 : GatherDims S50000x300 S4096x1 S4096x300 where
  offsetDims := [1]
  collapsedSliceDims := [0]
  operandBatchingDims := []
  startIndicesBatchingDims := []
  startIndexMap := [0]
  indexVectorDim := 1
  sliceSizes := ![1, 300]
  wf := gather_S50000x300_S4096x1_S4096x300_1_0_n_n_0_1_1300_wf
def dot_S4096x300_S50000x300_S4096x50000_1_1_0_0_n_n : DotDims S4096x300 S50000x300 S4096x50000 where
  lhsContracting := [1]
  rhsContracting := [1]
  lhsNonContracting := [0]
  rhsNonContracting := [0]
  lhsBatch := []
  rhsBatch := []
  wf := dot_S4096x300_S50000x300_S4096x50000_1_1_0_0_n_n_wf

class Facts : Prop extends Facts₀ where

variable [Facts]
-- ==== Proof.Embed.lean ====
/-
  The embedding rows both programs start from.

  Both programs first look the token ids `x : i32[4096]` up in the transposed table `w_encᵀ : [50000, 300]`, by the
  same host operations: an id below zero is moved up by the table's height (`x + 50000`), a row whose moved id is
  still outside `0 … 49999` is filled with the literal `0x7FC00000`, and every other row is the table's row at the id
  (the gather clamps its start index, which the range test has already made harmless).  `rows x w_enc` is that
  array, `[4096, 300]`, as one function of the two arguments, at any float instance; nothing below ever looks inside
  it — the two programs only have to agree that they start from the same array.
-/
import proofs.«118361_j78365973283493_2_alg».proof.Proof.Gen.KernelIdeal

noncomputable section

namespace Cert.Embedding

open Idealize.ShloMosaic Cert.KernelIdeal Cert.KernelIdeal.Gen

variable {F : FTy → Type} [FloatOps F]

/-- The ids with the negative ones moved up by the table's height, as a column. -/
def ids (x : IVec S4096 32) : IVec S4096x1 32 :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 50000#32))) x)

/-- Per row: is the moved id inside `0 … 49999`? -/
def inRange (x : IVec S4096 32) : IVec S4096 1 :=
  Host.reduce IntOp.andi
    (andi (cmpi .sge (ids x) (broadcastInDim S4096x1 ![] bcast_S_S4096x1 (constantI S_ 32 0#32)))
      (cmpi .sle (ids x) (broadcastInDim S4096x1 ![0, 1] bcast_S1x1_S4096x1_0_1
        (broadcastInDim S1x1 ![1] bcast_S1_S1x1_1 (constantI S1 32 49999#32)))))
    (constantI S_ 1 1#1) reducesTo_S4096x1_S4096_d1 h_S_

/-- The looked-up rows: row `b` is row `x b` of `w_encᵀ`, or the fill literal where the id is out of range. -/
def rows (x : IVec S4096 32) (w : FVec F S300x50000 .f32) : FVec F S4096x300 .f32 :=
  select (broadcastInDim S4096x300 ![0] bcast_S4096_S4096x300_0 (inRange x))
    (Host.gather gather_S50000x300_S4096x1_S4096x300_1_0_n_n_0_1_1300
      (transpose S50000x300 [1, 0] w transposes_S300x50000_S50000x300_1_0) (ids x))
    (broadcastInDim S4096x300 ![] bcast_S_S4096x300 (constant S_ .f32 0x7FC00000#32))

end Cert.Embedding

end
-- ==== Proof.LibTransposedProduct.lean ====
/-
  A matrix product with the right factor transposed, read at one entry.

  For matrices `A : [M, K]` and `B : [N, K]` the contraction of the LAST axis of both — `A · Bᵀ`, the einsum
  `mk,nk->mn` — has entry `(i, j)` equal to `∑ k < K, A (i, k) * B (j, k)`.  At the ideal instance both the matrix
  unit's product into a zero accumulator and the host's `dot_general` are that sum, for ANY record of dimension
  numbers whose six axis lists are those of `A · Bᵀ` (contracting `[1]` and `[1]`, free `[0]` and `[0]`, no batch
  axis), at any extents `M`, `K`, `N` and any two float formats of the factors; `abt A B` names the whole product as
  one array, which both operations are.
-/
import Idealize.ShloMosaic.Lib.ValueIdx
import Idealize.ShloMosaic.PureOps.Ideal.Laws

noncomputable section

namespace Idealize.ShloMosaic.TransposedProduct

open Idealize.ShloMosaic Idealize.ShloMosaic.ValueIdx

variable {M K N : Nat}

/-- The axis lists of `A · Bᵀ`: both factors contracted on their last axis, their first axes free, no batch axis. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![M, K]⟩ ⟨2, ![N, K]⟩ ⟨2, ![M, N]⟩}

/-- The contracted shape has one axis … -/
theorem IsABt.rank_contr (h : IsABt d) : d.contr.rank = 1 := by
  rw [d.rank_contr, h.lc]; rfl

/-- … of extent `K`. -/
theorem IsABt.size_contr (h : IsABt d) : d.contr.size ⟨0, by rw [h.rank_contr]; exact Nat.one_pos⟩ = K := by
  have e := d.size_contr 0 (by rw [h.lc]; exact Nat.one_pos)
  rw [e]
  have : d.lhsContracting[0]'(by rw [h.lc]; exact Nat.one_pos) = (1 : Fin 2) := by
    simp [h.lc]
  rw [this]; rfl

/-- The left factor is read at row `i` of the entry … -/
theorem IsABt.lhs_row (h : IsABt d) (j : (⟨2, ![M, N]⟩ : Shape).Idx) (q : d.contr.Idx) :
    (d.lhsIdx j q 0).val = (j 0).val := by
  obtain ⟨lc, rc, ln, rn, lb, rb, wf⟩ := d
  obtain ⟨h1, h2, h3, h4, h5, h6⟩ := h
  simp only at h1 h2 h3 h4 h5 h6
  subst h1 h2 h3 h4 h5 h6
  unfold DotDims.lhsIdx
  rw [dif_neg List.not_mem_nil, dif_pos (List.mem_singleton.mpr rfl)]
  rfl

/-- … and at the contraction's position along its columns. -/
theorem IsABt.lhs_col (h : IsABt d) (j : (⟨2, ![M, N]⟩ : Shape).Idx) (q : d.contr.Idx) :
    (d.lhsIdx j q 1).val = (q ⟨0, by rw [h.rank_contr]; exact Nat.one_pos⟩).val :=
  d.lhsIdx_val_of_single h.lc j q

/-- The right factor is read at the row the entry's COLUMN names … -/
theorem IsABt.rhs_row (h : IsABt d) (j : (⟨2, ![M, N]⟩ : Shape).Idx) (q : d.contr.Idx) :
    (d.rhsIdx j q 0).val = (j 1).val := by
  obtain ⟨lc, rc, ln, rn, lb, rb, wf⟩ := d
  obtain ⟨h1, h2, h3, h4, h5, h6⟩ := h
  simp only at h1 h2 h3 h4 h5 h6
  subst h1 h2 h3 h4 h5 h6
  unfold DotDims.rhsIdx
  rw [dif_neg List.not_mem_nil, dif_pos (List.mem_singleton.mpr rfl)]
  rfl

/-- … and at the contraction's position along its columns. -/
theorem IsABt.rhs_col (h : IsABt d) (j : (⟨2, ![M, N]⟩ : Shape).Idx) (q : d.contr.Idx) :
    (d.rhsIdx j q 1).val = (q ⟨0, by rw [h.rank_contr]; exact Nat.one_pos⟩).val :=
  d.rhsIdx_val_of_single h.rc j q

/-- The contraction's sum over its one axis is the sum over `k < K` of the products of row `i` of `A` with row `j`
    of `B`. -/
theorem IsABt.sum_contr {φ₁ φ₂ : FTy} (h : IsABt d) (A : FVec Ideal ⟨2, ![M, K]⟩ φ₁) (B : FVec Ideal ⟨2, ![N, K]⟩ φ₂)
    (i : Fin M) (j : Fin N) :
    (∑ q : d.contr.Idx, A (d.lhsIdx (ix2 i j) q) * B (d.rhsIdx (ix2 i j) q) : EReal)
      = ∑ k : Fin K, A (ix2 i k) * B (ix2 j k) := by
  rw [← Equiv.sum_comp (contrEquiv1 d K h.rank_contr h.size_contr).symm]
  refine Finset.sum_congr rfl fun k _ => ?_
  have hk := contrEquiv1_symm_val d K h.rank_contr h.size_contr k
  have el : d.lhsIdx (ix2 i j) ((contrEquiv1 d K h.rank_contr h.size_contr).symm k) = ix2 i k :=
    funext fun a => Fin.ext (by
      match a with
      | ⟨0, _⟩ => exact h.lhs_row _ _
      | ⟨1, _⟩ => exact (h.lhs_col _ _).trans hk)
  have er : d.rhsIdx (ix2 i j) ((contrEquiv1 d K h.rank_contr h.size_contr).symm k) = ix2 j k :=
    funext fun a => Fin.ext (by
      match a with
      | ⟨0, _⟩ => exact h.rhs_row _ _
      | ⟨1, _⟩ => exact (h.rhs_col _ _).trans hk)
  rw [el, er]

/-- THE MATRIX UNIT's product into the zero accumulator, at entry `(i, j)`. -/
theorem matmul_zero_apply {φ₁ φ₂ : FTy} (h : IsABt d) (prec : Option ContractPrecision)
    (A : FVec Ideal ⟨2, ![M, K]⟩ φ₁) (B : FVec Ideal ⟨2, ![N, K]⟩ φ₂) (i : Fin M) (j : Fin N) :
    matmul d prec A B (constant (F := Ideal) ⟨2, ![M, N]⟩ .f32 0x00000000#32) (ix2 i j)
      = ∑ k : Fin K, A (ix2 i k) * B (ix2 j k) :=
  (Ideal.matmul_constant_zero_apply d prec A B (ix2 i j)).trans (h.sum_contr A B i j)

/-- THE HOST's `dot_general`, at entry `(i, j)`. -/
theorem dotGeneral_apply {φ₁ φ₂ : FTy} (h : IsABt d) (prec : Option ContractPrecision)
    (A : FVec Ideal ⟨2, ![M, K]⟩ φ₁) (B : FVec Ideal ⟨2, ![N, K]⟩ φ₂) (i : Fin M) (j : Fin N) :
    Host.dotGeneral d prec A B (ix2 i j) = ∑ k : Fin K, A (ix2 i k) * B (ix2 j k) := by
  simp only [Host.dotGeneral]
  exact (Ideal.dotGeneral_apply d prec _ A B (ix2 i j)).trans (h.sum_contr A B i j)

/-! ## The whole product as one array -/

/-- `A · Bᵀ` as a function of the two matrices: entry `(i, j)` is `∑ k < K, A (i, k) * B (j, k)`. -/
def abt (A : (⟨2, ![M, K]⟩ : Shape).Idx → EReal) (B : (⟨2, ![N, K]⟩ : Shape).Idx → EReal) :
    (⟨2, ![M, N]⟩ : Shape).Idx → EReal :=
  fun j => ∑ k : Fin K, A (ix2 (j 0) k) * B (ix2 (j 1) k)

theorem abt_apply (A : (⟨2, ![M, K]⟩ : Shape).Idx → EReal) (B : (⟨2, ![N, K]⟩ : Shape).Idx → EReal) (i : Fin M) (j : Fin N) :
    abt A B (ix2 i j) = ∑ k : Fin K, A (ix2 i k) * B (ix2 j k) := rfl

/-- The matrix unit's product into the zero accumulator IS that array … -/
theorem matmul_zero_eq_abt {φ₁ φ₂ : FTy} (h : IsABt d) (prec : Option ContractPrecision)
    (A : FVec Ideal ⟨2, ![M, K]⟩ φ₁) (B : FVec Ideal ⟨2, ![N, K]⟩ φ₂) :
    matmul d prec A B (constant (F := Ideal) ⟨2, ![M, N]⟩ .f32 0x00000000#32) = abt A B := by
  funext j
  obtain ⟨p, q, rfl⟩ : ∃ (p : Fin M) (q : Fin N), j = ix2 p q := ⟨j 0, j 1, eq_ix2 j⟩
  exact matmul_zero_apply h prec A B p q

/-- … and so is the host's `dot_general`. -/
theorem dotGeneral_eq_abt {φ₁ φ₂ : FTy} (h : IsABt d) (prec : Option ContractPrecision)
    (A : FVec Ideal ⟨2, ![M, K]⟩ φ₁) (B : FVec Ideal ⟨2, ![N, K]⟩ φ₂) :
    Host.dotGeneral d prec A B = abt A B := by
  funext j
  obtain ⟨p, q, rfl⟩ : ∃ (p : Fin M) (q : Fin N), j = ix2 p q := ⟨j 0, j 1, eq_ix2 j⟩
  exact dotGeneral_apply h prec A B p q

end Idealize.ShloMosaic.TransposedProduct

end
-- ==== Proof.LibPaddedSum.lean ====
/-
  Zero padding does not change a sum, nor a sum of products.

  A sum over `k < n` of terms that vanish from `m ≤ n` on is the sum over `k < m`; hence if two rows of length `m`
  are both continued by zeros up to length `n`, the sum over `k < n` of the products of the continued rows is the sum
  over `k < m` of the products of the rows.  Stated in any commutative additive monoid (the first), and for any
  multiplication on it with `0 * 0 = 0` (the second) — in particular on the extended reals, where no finiteness is
  needed: the padding's terms are `0 * 0`.
-/
import Mathlib.Algebra.BigOperators.Fin

namespace PaddedSum

open scoped BigOperators

/-- A sum over `k < n` whose terms vanish from `m` on is the sum of its first `m` terms. -/
theorem sum_eq_sum_castLE {R : Type*} [AddCommMonoid R] {m n : ℕ} (h : m ≤ n) (f : Fin n → R)
    (hz : ∀ k : Fin n, m ≤ k.val → f k = 0) : ∑ k, f k = ∑ k : Fin m, f (Fin.castLE h k) := by
  obtain ⟨r, rfl⟩ := Nat.exists_eq_add_of_le h
  exact Fin.sum_trunc f fun j => hz _ (by simp)

/-- Rows `a`, `b` of length `m` continued by zeros to length `n` (`a'`, `b'`): the products' sum is unchanged. -/
theorem sum_mul_padded {R : Type*} [AddCommMonoid R] [Mul R] (h00 : (0 : R) * 0 = 0) {m n : ℕ} (h : m ≤ n) (a b : Fin m → R)
    (a' b' : Fin n → R) (ha : ∀ k : Fin m, a' (Fin.castLE h k) = a k) (hb : ∀ k : Fin m, b' (Fin.castLE h k) = b k)
    (ha0 : ∀ k : Fin n, m ≤ k.val → a' k = 0) (hb0 : ∀ k : Fin n, m ≤ k.val → b' k = 0) :
    ∑ k, a' k * b' k = ∑ k, a k * b k := by
  rw [sum_eq_sum_castLE h (fun k => a' k * b' k) fun k hk => by rw [ha0 k hk, hb0 k hk, h00]]
  exact Finset.sum_congr rfl fun k _ => by rw [ha k, hb k]

end PaddedSum
-- ==== Proof.LibHighPad.lean ====
/-
  A matrix padded on the high side of its axes, read at an entry.

  `stablehlo.pad` of a matrix `x : [a, b]` with no low and no interior padding (any high padding) to `[a', b']` keeps
  `x` in the top-left corner: entry `(i, k)` of the result with `i < a` and `k < b` is `x (i, k)`, and every entry
  with `a ≤ i` or `b ≤ k` is the padding value.  And the padding value jnp passes for a zero-padded float array, the
  integer `0` converted to the array's format, is the extended real `0` at the ideal instance.
-/
import Idealize.ShloMosaic.Lib.KernelVsHost

noncomputable section

namespace Idealize.ShloMosaic.HighPad

open Idealize.ShloMosaic Idealize.ShloMosaic.ValueIdx

variable {α : Type} {a b a' b' : Nat}

/-- Inside the corner the padded matrix is the matrix. -/
theorem pad_apply_corner (hi : Fin 2 → Nat) (x : (⟨2, ![a, b]⟩ : Shape).Idx → α) {u : Shape} (v : u.Idx → α)
    (h : (⟨2, ![a, b]⟩ : Shape).Pads (![0, 0] : Fin 2 → Nat) hi ![0, 0] ⟨2, ![a', b']⟩) (hu : 0 < u.numel)
    (i : Fin a) (k : Fin b) (i' : Fin a') (k' : Fin b') (ei : i'.val = i.val) (ek : k'.val = k.val) :
    pad ⟨2, ![a', b']⟩ (![0, 0] : Fin 2 → Nat) hi ![0, 0] x v h hu (ix2 i' k') = x (ix2 i k) :=
  pad_apply_of_inside _ _ _ x v h hu (ix2 i' k') (ix2 i k) fun ax => by
    match ax with
    | ⟨0, _⟩ => show i'.val = 0 + i.val * (0 + 1); omega
    | ⟨1, _⟩ => show k'.val = 0 + k.val * (0 + 1); omega

/-- Below the matrix's last row the padded matrix is the padding value … -/
theorem pad_apply_below (hi : Fin 2 → Nat) (x : (⟨2, ![a, b]⟩ : Shape).Idx → α) {u : Shape} (v : u.Idx → α)
    (h : (⟨2, ![a, b]⟩ : Shape).Pads (![0, 0] : Fin 2 → Nat) hi ![0, 0] ⟨2, ![a', b']⟩) (hu : 0 < u.numel)
    (i' : Fin a') (k' : Fin b') (hout : a ≤ i'.val) :
    pad ⟨2, ![a', b']⟩ (![0, 0] : Fin 2 → Nat) hi ![0, 0] x v h hu (ix2 i' k') = v (Shape.Idx.first hu) :=
  pad_apply_of_not_inside _ _ _ x v h hu (ix2 i' k') ⟨0, Nat.zero_lt_two⟩ (by
    show ¬(0 ≤ i'.val ∧ (i'.val - 0) % (0 + 1) = 0 ∧ (i'.val - 0) / (0 + 1) < a)
    rintro ⟨-, -, hlt⟩
    rw [Nat.sub_zero, Nat.zero_add, Nat.div_one] at hlt
    omega)

/-- … and so it is right of its last column. -/
theorem pad_apply_right (hi : Fin 2 → Nat) (x : (⟨2, ![a, b]⟩ : Shape).Idx → α) {u : Shape} (v : u.Idx → α)
    (h : (⟨2, ![a, b]⟩ : Shape).Pads (![0, 0] : Fin 2 → Nat) hi ![0, 0] ⟨2, ![a', b']⟩) (hu : 0 < u.numel)
    (i' : Fin a') (k' : Fin b') (hout : b ≤ k'.val) :
    pad ⟨2, ![a', b']⟩ (![0, 0] : Fin 2 → Nat) hi ![0, 0] x v h hu (ix2 i' k') = v (Shape.Idx.first hu) :=
  pad_apply_of_not_inside _ _ _ x v h hu (ix2 i' k') ⟨1, Nat.one_lt_two⟩ (by
    show ¬(0 ≤ k'.val ∧ (k'.val - 0) % (0 + 1) = 0 ∧ (k'.val - 0) / (0 + 1) < b)
    rintro ⟨-, -, hlt⟩
    rw [Nat.sub_zero, Nat.zero_add, Nat.div_one] at hlt
    omega)

/-- The integer zero, converted to a float format, is the extended real zero at every index. -/
theorem sitofp_zero_apply {φ : FTy} {s : Shape} (j : s.Idx) :
    (sitofp φ (constantI s 32 0#32) : FVec Ideal s φ) j = 0 := by
  show ((((0#32 : BitVec 32).toInt : ℤ) : ℝ) : EReal) = 0
  simp

end Idealize.ShloMosaic.HighPad

end
-- ==== Proof.Bridge.lean ====
/-
  The two results are one array.

  The kernel's program rounds the looked-up rows `h : [4096, 300]` and `w_dec : [50000, 300]` to bf16 (the identity at
  the ideal instance), pads both with zeros — `h` to `[4096, 384]`, `w_dec` to `[51200, 384]` —, forms
  `hp · wpᵀ : [4096, 51200]` and keeps its first 50000 columns.  Entry `(b, v)` of that, `v < 50000`, is
  `∑ k < 384, hp (b, k) * wp (v, k)`; for `k < 300` the factors are `h (b, k)` and `w_dec (v, k)`, and for
  `300 ≤ k` both are the padding zero, so the term is `0 * 0 = 0`: the sum is `∑ k < 300, h (b, k) * w_dec (v, k)`,
  the reference's `dot_general` of `h` and `w_dec` at `(b, v)`.  Only `0 * 0 = 0` and `s + 0 = s` are used, so the
  equality holds on the extended reals whatever the rows hold (no finiteness, and the rows are never opened).
-/
import proofs.«118361_j78365973283493_2_alg».proof.Proof.Gen.KernelIdeal
import proofs.«118361_j78365973283493_2_alg».proof.Proof.Gen.ReferenceIdeal
import proofs.«118361_j78365973283493_2_alg».proof.Proof.Embed
import proofs.«118361_j78365973283493_2_alg».proof.Proof.LibTransposedProduct
import proofs.«118361_j78365973283493_2_alg».proof.Proof.LibPaddedSum
import proofs.«118361_j78365973283493_2_alg».proof.Proof.LibHighPad
import Idealize.ShloMosaic.Lib.Pipeline.Value

noncomputable section

namespace Cert.Bridge

open Idealize.ShloMosaic Idealize.ShloMosaic.ValueIdx Idealize.ShloMosaic.TransposedProduct Idealize.ShloMosaic.HighPad
open Cert.KernelIdeal Cert.KernelIdeal.Gen

/-- Zero padding of both factors along the contracted axis (and of the right factor's rows) leaves every entry of
    `A · Bᵀ` that is still there unchanged. -/
theorem abt_of_padded {M K N K' N' : Nat} (hK : K ≤ K')
    (A : (⟨2, ![M, K]⟩ : Shape).Idx → EReal) (B : (⟨2, ![N, K]⟩ : Shape).Idx → EReal)
    (Ap : (⟨2, ![M, K']⟩ : Shape).Idx → EReal) (Bp : (⟨2, ![N', K']⟩ : Shape).Idx → EReal)
    (hA : ∀ (i : Fin M) (k : Fin K), Ap (ix2 i (Fin.castLE hK k)) = A (ix2 i k))
    (hA0 : ∀ (i : Fin M) (k : Fin K'), K ≤ k.val → Ap (ix2 i k) = 0)
    (hB : ∀ (j : Fin N) (j' : Fin N'), j'.val = j.val → ∀ k : Fin K, Bp (ix2 j' (Fin.castLE hK k)) = B (ix2 j k))
    (hB0 : ∀ (j' : Fin N') (k : Fin K'), K ≤ k.val → Bp (ix2 j' k) = 0)
    (i : Fin M) (j : Fin N) (j' : Fin N') (hj : j'.val = j.val) :
    abt Ap Bp (ix2 i j') = abt A B (ix2 i j) :=
  PaddedSum.sum_mul_padded (mul_zero (0 : EReal)) hK (fun k => A (ix2 i k)) (fun k => B (ix2 j k))
    (fun k => Ap (ix2 i k)) (fun k => Bp (ix2 j' k)) (hA i) (hB j j' hj) (hA0 i) (hB0 j')

/-- The rows, rounded to bf16 and padded with zeros to 384 columns. -/
def rowsPadded (h : FVec Ideal S4096x300 .f32) : FVec Ideal S4096x384 .bf16 :=
  pad S4096x384 ![0, 0] ![0, 84] ![0, 0] (truncf .bf16 h bitsLt_bf16_f32)
    (sitofp (F := Ideal) .bf16 (constantI S_ 32 0#32)) pads_S4096x300_S4096x384_000_0840 h_S_

/-- `w_dec`, rounded to bf16 and padded with zeros to 51200 rows of 384 columns. -/
def decPadded (w : FVec Ideal S50000x300 .f32) : FVec Ideal S51200x384 .bf16 :=
  pad S51200x384 ![0, 0] ![1200, 84] ![0, 0] (truncf .bf16 w bitsLt_bf16_f32)
    (sitofp (F := Ideal) .bf16 (constantI S_ 32 0#32)) pads_S50000x300_S51200x384_012000_0840 h_S_

/-- What the kernel's program returns from the looked-up rows and `w_dec`: the padded product's first 50000 columns. -/
def kernelValue (h : FVec Ideal S4096x300 .f32) (w : FVec Ideal S50000x300 .f32) : FVec Ideal S4096x50000 .f32 :=
  extractStridedSlice S4096x50000 ![0, 0] (abt (rowsPadded h) (decPadded w)) slices_S4096x51200_S4096x50000_0_0

/-- THE BRIDGE: it is the reference's `dot_general` of the rows and `w_dec`. -/
theorem kernelValue_eq (h : FVec Ideal S4096x300 .f32) (w : FVec Ideal S50000x300 .f32) :
    kernelValue h w
      = Host.dotGeneral Cert.ReferenceIdeal.dot_S4096x300_S50000x300_S4096x50000_1_1_0_0_n_n none h w := by
  rw [dotGeneral_eq_abt ⟨rfl, rfl, rfl, rfl, rfl, rfl⟩]
  funext j
  obtain ⟨b, v, rfl⟩ : ∃ (b : Fin 4096) (v : Fin 50000), j = ix2 b v := ⟨j 0, j 1, eq_ix2 j⟩
  unfold kernelValue
  refine (extractStridedSlice_apply _ _ _ (ix2 b v) (ix2 b (Fin.castLE (by decide : 50000 ≤ 51200) v)) (fun a => by
    match a with
    | ⟨0, _⟩ => show b.val = 0 + b.val; omega
    | ⟨1, _⟩ => show v.val = 0 + v.val; omega)).trans ?_
  refine abt_of_padded (by decide : 300 ≤ 384) h w (rowsPadded h) (decPadded w) ?_ ?_ ?_ ?_ b v _ rfl
  · intro i k
    exact pad_apply_corner _ _ _ _ _ i k i _ rfl rfl
  · intro i k hk
    exact (pad_apply_right _ _ _ _ _ i k hk).trans (sitofp_zero_apply _)
  · intro j j' hj k
    exact pad_apply_corner _ _ _ _ _ j k j' _ hj rfl
  · intro j' k hk
    exact (pad_apply_right _ _ _ _ _ j' k hk).trans (sitofp_zero_apply _)

end Cert.Bridge

end
-- ==== Proof.Block.lean ====
/-
  One grid point's block of the kernel's product.

  At a grid point the body loads a block `x0 : [1024, 384]` of the padded rows and a block `x1 : [3200, 384]` of the
  padded `w_dec`, and stores the matrix unit's product of the two, contracted on their last axes, into a zero
  accumulator: entry `(p, q)` of the stored block is `∑ k < 384, x0 (p, k) * x1 (q, k)` — the block `x0 · x1ᵀ`.
-/
import proofs.«118361_j78365973283493_2_alg».proof.Proof.Gen.KernelIdeal.Skeleton
import proofs.«118361_j78365973283493_2_alg».proof.Proof.LibTransposedProduct
import Idealize.ShloMosaic.Lib.Pipeline.Value

noncomputable section

namespace Cert.KernelIdeal.Block

open Idealize.ShloMosaic Idealize.ShloMosaic.ValueIdx Idealize.ShloMosaic.TransposedProduct
open Cert.KernelIdeal Cert.KernelIdeal.Gen

/-- The body's one payload is the block product `x0 · x1ᵀ`. -/
theorem pay_eq (x0 : FVec Ideal S1024x384 .bf16) (x1 : FVec Ideal S3200x384 .bf16) :
    k0_pay1 (F := Ideal) x0 x1 = abt x0 x1 := by
  show matmul dot_S1024x384_S3200x384_S1024x3200_1_1_0_0_n_n none
      (shapeCast S1024x384 x0 shapeCasts_S1024x384_S1024x384) (shapeCast S3200x384 x1 shapeCasts_S3200x384_S3200x384)
      (constant (F := Ideal) S1024x3200 .f32 0x00000000#32) = _
  rw [shapeCast_self, shapeCast_self]
  exact matmul_zero_eq_abt ⟨rfl, rfl, rfl, rfl, rfl, rfl⟩ none x0 x1

end Cert.KernelIdeal.Block

end
-- ==== Proof.KernelHost.lean ====
/-
  What the region finds in its two input arrays.

  Before the region @main computes the looked-up rows (`Embedding.rows`, the transpose and the lookup's twenty-three
  operations), rounds them to bf16 and pads them with zeros to `[4096, 384]` — the array the first window stages —, and
  rounds `w_dec` to bf16 and pads it with zeros to `[51200, 384]` — the array the second window stages.  Read at those
  two buffers the fold of the thirty-three host operations over any starting contents is `Bridge.rowsPadded` of the rows
  and `Bridge.decPadded` of `w_dec`.
-/
import proofs.«118361_j78365973283493_2_alg».proof.Proof.Gen.KernelIdeal.Frame
import proofs.«118361_j78365973283493_2_alg».proof.Proof.Bridge
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

set_option maxHeartbeats 4000000 in
/-- The first window's array: the rows, rounded and zero-padded. -/
theorem rows_fold (W : Valuation τ sig (Elt Ideal)) :
    after (List.flatten [hostOps0, hostOps0_1, hostOps0_2, hostOps0_3, hostOps0_4, hostOps0_5]) W (main_v3 : DevRef τ sig)
      = Cert.Bridge.rowsPadded (Cert.Embedding.rows (W (main_arg0 : DevRef τ sig)) (W (main_arg1 : DevRef τ sig))) := by
  simp only [hostOps0, hostOps0_1, hostOps0_2, hostOps0_3, hostOps0_4, hostOps0_5, List.flatten_cons, List.flatten_nil,
    List.append_nil, List.cons_append, List.nil_append]
  after_results
  simp only [TRef.ofBuf, TRef.toBuf, cast_eq]
  unfold Cert.Bridge.rowsPadded Cert.Embedding.rows Cert.Embedding.inRange Cert.Embedding.ids
  rfl

set_option maxHeartbeats 4000000 in
/-- The second window's array: `w_dec`, rounded and zero-padded. -/
theorem dec_fold (W : Valuation τ sig (Elt Ideal)) :
    after (List.flatten [hostOps0, hostOps0_1, hostOps0_2, hostOps0_3, hostOps0_4, hostOps0_5]) W (main_v5 : DevRef τ sig)
      = Cert.Bridge.decPadded (W (main_arg2 : DevRef τ sig)) := by
  simp only [hostOps0, hostOps0_1, hostOps0_2, hostOps0_3, hostOps0_4, hostOps0_5, List.flatten_cons, List.flatten_nil,
    List.append_nil, List.cons_append, List.nil_append]
  after_results
  simp only [TRef.ofBuf, TRef.toBuf, cast_eq]
  unfold Cert.Bridge.decPadded
  rfl

variable (m : (ℓ : Loc nD τ sig) → Buf (Elt Ideal) ℓ)

/-- As the region finds them, in terms of the launch memory. -/
theorem V_rows (c : Dev nD) :
    V m c main_v3 = Cert.Bridge.rowsPadded
      (Cert.Embedding.rows (m ((c : Thread nD τ).loc main_arg0)) (m ((c : Thread nD τ).loc main_arg1))) :=
  rows_fold _

theorem V_dec (c : Dev nD) : V m c main_v5 = Cert.Bridge.decPadded (m ((c : Thread nD τ).loc main_arg2)) :=
  dec_fold _

end Cert.KernelIdeal.HostSide

end
-- ==== Proof.KernelValue.lean ====
/-
  The kernel's run, read as a value.

  The region's grid has 16 × 4 points; point `t = (u, s)` stages rows `1024 s …` of the padded rows `hp`, rows
  `3200 u …` of the padded `w_dec` (`wp`), and writes back block `(s, u)` of the output `[4096, 51200]`.  What it writes is the
  block product `x0 · x1ᵀ` of the two staged blocks, which is block `(s, u)` of the ONE array `hp · wpᵀ`: entry `(p, q)` of
  the block is `∑ k, hp (1024 s + p, k) * wp (3200 u + q, k)`.  The 64 blocks tile the output, so after the region the
  output array is `hp · wpᵀ`; the one host operation after the region keeps its first 50000 columns; and `hp`, `wp` are
  the zero-padded rows and `w_dec` (`HostSide.V_rows`, `V_dec`).  So the program's result is `Bridge.kernelValue` of the
  looked-up rows and `w_dec`, and the arguments end as launched.
-/
import proofs.«118361_j78365973283493_2_alg».proof.Proof.Gen.KernelIdeal.Frame
import proofs.«118361_j78365973283493_2_alg».proof.Proof.Block
import proofs.«118361_j78365973283493_2_alg».proof.Proof.KernelHost
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.TransposedProduct
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the rows' window moves with the output's row block and the `w_dec` window with
    its column block, both at column block 0; the output's block indices range over 4 × 16. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 15 :=
  (by decide +kernel : ∀ t : Fin grid0.N, _)

/-- Every output block is some point's. -/
theorem index_onto : ∀ (q0 : Fin 4) (q1 : Fin 16), ∃ t : Fin cfg0.N, win0_2.index t = ![q0.val, q1.val] :=
  (by decide +kernel : ∀ (q0 : Fin 4) (q1 : Fin 16), ∃ t : Fin grid0.N, win0_2.index t = ![q0.val, q1.val])

/-- WHAT POINT `t` WRITES BACK is block `t` of `hp · wpᵀ`, `hp` and `wp` the two input arrays as the region finds them. -/
theorem flushed_eq (c : Dev nD) (t : Fin cfg0.N) :
    (dats m 0 c).flushed 2 t
      = ((cfg0.win 2).blk t).view.read (Elt Ideal) (abt (V m c main_v3) (V m c main_v5)) := by
  show (cfg0.win 2).cut (grid0.coords t) ((dats m 0 c).after 2 t) = _
  rw [after0_2]
  unfold out0_2
  rw [View.canon_unit_zero zero_offsets]
  simp only [View.ld_unit_zero (S := S1024x384) zero_offsets, View.ld_unit_zero (S := S3200x384) zero_offsets]
  rw [Cert.KernelIdeal.Block.pay_eq]
  obtain ⟨e0, e1, e2, e3, -, -⟩ := index_facts t
  funext j
  obtain ⟨p, q, rfl⟩ : ∃ (p : Fin 1024) (q : Fin 3200), j = ix2 p q := ⟨j 0, j 1, eq_ix2 j⟩
  have h0 : ∀ k : Fin 384,
      ((cfg0.win 0).blk t).view.emb (ix2 p k) = ix2 ((((cfg0.win 2).blk t).view.emb (ix2 p q)) 0) k := fun k => by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 384 + 1 * k.val = k.val; omega
  have h1 : ∀ k : Fin 384,
      ((cfg0.win 1).blk t).view.emb (ix2 q k) = ix2 ((((cfg0.win 2).blk t).view.emb (ix2 p q)) 1) k := fun k => by
    funext a; apply Fin.ext
    match a with
    | ⟨0, _⟩ => show win0_1.index t (0 : Fin 2) * 3200 + 1 * q.val = win0_2.index t (1 : Fin 2) * 3200 + 1 * q.val; omega
    | ⟨1, _⟩ => show win0_1.index t (1 : Fin 2) * 384 + 1 * k.val = k.val; omega
  have key : ∀ (A : S4096x384.Idx → EReal) (B : S51200x384.Idx → EReal),
      (∑ k : Fin 384, A (((cfg0.win 0).blk t).view.emb (ix2 p k)) * B (((cfg0.win 1).blk t).view.emb (ix2 q k)))
        = ∑ k : Fin 384, A (ix2 ((((cfg0.win 2).blk t).view.emb (ix2 p q)) 0) k)
            * B (ix2 ((((cfg0.win 2).blk t).view.emb (ix2 p q)) 1) k) := fun A B =>
    Finset.sum_congr rfl fun k _ => by rw [h0 k, h1 k]; rfl
  exact key (V m c main_v3) (V m c main_v5)

/-- An index of the output is in point `t`'s block iff each coordinate is in the block's range on its axis. -/
theorem mem_blk (t : Fin cfg0.N) (i : S4096x51200.Idx) :
    i ∈ ((cfg0.win 2).blk t).view.set ↔ ∀ a : Fin 2, win0_2.index t a * S1024x3200.size a ≤ (i a).val
      ∧ (i a).val < win0_2.index t a * S1024x3200.size a + S1024x3200.size a := by
  show i ∈ ((View.whole main_v6).slice (win0_2.rect t)).set ↔ _
  rw [View.set_slice_whole, Rect.mem_set_unit]
  exact Iff.rfl

/-- The blocks tile the output: every index is in the block of the point at (row / 1024, column / 3200). -/
theorem covered (i : S4096x51200.Idx) :
    ∃ t : Fin cfg0.N, (cfg0.win 2).flush t = true ∧ i ∈ ((cfg0.win 2).blk t).view.set := by
  have hi0 : (i 0).val < 4096 := (i 0).isLt
  have hi1 : (i 1).val < 51200 := (i 1).isLt
  obtain ⟨t, ht⟩ := index_onto ⟨(i 0).val / 1024, by omega⟩ ⟨(i 1).val / 3200, by omega⟩
  have q0 : win0_2.index t (0 : Fin 2) = (i 0).val / 1024 := congrFun ht 0
  have q1 : win0_2.index t (1 : Fin 2) = (i 1).val / 3200 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 3200 ≤ (i 1).val ∧ (i 1).val < win0_2.index t (1 : Fin 2) * 3200 + 3200; omega

/-- THE OUTPUT ARRAY after the region is `hp · wpᵀ`. -/
theorem final (c : Dev nD) : (dats m 0 c).arrAt 2 cfg0.N = abt (V m c main_v3) (V m c main_v5) :=
  (dats m 0 c).arrAt_eq_of_cover 2 _ (fun t _ => flushed_eq m c t) covered

/-- THE RESULT: the host line after the region keeps the first 50000 columns; with the input arrays read back to the
    arguments it is `Bridge.kernelValue` of the looked-up rows and `w_dec`. -/
theorem result_eq (c : Dev nD) :
    Pipeline.afterTail₀ cfgs (dats m) 0 (V0 m) [hostOps1] c main_v7
      = Cert.Bridge.kernelValue
          (Cert.Embedding.rows (m ((c : Thread nD τ).loc main_arg0)) (m ((c : Thread nD τ).loc main_arg1)))
          (m ((c : Thread nD τ).loc main_arg2)) := by
  unfold Pipeline.afterTail₀
  show StableHlo.after hostOps1 _ (Proc.devRef .tc main_v7) = _
  after_results
  rw [(Pipeline.withArrays_arr spec0 launch0.win.arr_inj c _ _ 2).trans (final m c),
    Cert.KernelIdeal.HostSide.V_rows, Cert.KernelIdeal.HostSide.V_dec]
  rfl

/-- THE KERNEL PROGRAM'S RUN: it terminates with the result at `Bridge.kernelValue` of the rows and `w_dec`, the
    arguments unchanged. -/
theorem run : θ_run defs (onTc (τ := τ) (main (F := Ideal))) ⟨m, fun _ => 0, ρ⟩ fun r => ∀ c : Dev nD,
      r.2.mem ((c.tc : Thread nD τ).loc main_v7)
          = Cert.Bridge.kernelValue
              (Cert.Embedding.rows (m ((c.tc : Thread nD τ).loc main_arg0)) (m ((c.tc : Thread nD τ).loc main_arg1)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v7 (Pipeline.mem_restRefs_of main_v7 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KernelValue

end
-- ==== Proof.RefRun.lean ====
/-
  The reference's run, read back.

  The reference's @main is a straight line of host operations once its one call (the embedding lookup, which itself
  calls a three-way select) is unfolded at the call site: the transpose of `w_enc`, the lookup's twenty-three
  operations over the call's own buffers, and one `dot_general` contracting the LAST axis of the looked-up rows
  `[4096, 300]` with the last axis of `w_dec : [50000, 300]`.  Every weakly fair execution therefore terminates with
  each buffer at the fold of those operations over the launch contents; read at the result buffer, the fold is the
  `dot_general` of `Embedding.rows x w_enc` and `w_dec`, and the three arguments end as launched.
-/
import proofs.«118361_j78365973283493_2_alg».proof.Proof.Gen.ReferenceIdeal
import proofs.«118361_j78365973283493_2_alg».proof.Proof.Embed
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty-five operations in order, the lookup's written at its call site over the call's buffers. -/
abbrev ops : List (HloOp τ sig (Elt F)) :=
  [ unary main_arg1 main_v0 ((transpose S50000x300 [1, 0] · transposes_S300x50000_S50000x300_1_0) : (⟨S300x50000, .f32⟩ : BufTy).Contents (Elt F) → (⟨S50000x300, .f32⟩ : BufTy).Contents (Elt F)),
    TRef.nullary main_call0.c (constantI S_ 32 0#32),
    TRef.unary main_call0.c main_call0.v0 (broadcastInDim S4096 ![] bcast_S_S4096),
    TRef.binary (.of main_arg0) main_call0.v0 main_call0.v1 (cmpi .slt),
    TRef.nullary main_call0.c_0 (constantI S_ 32 50000#32),
    TRef.unary main_call0.c_0 main_call0.v2 (broadcastInDim S4096 ![] bcast_S_S4096),
    TRef.binary (.of main_arg0) main_call0.v2 main_call0.v3 addi,
    TRef.ternary main_call0.v1 main_call0.v3 (.of main_arg0) main_call0.call0.v0 select,
    TRef.unary main_call0.call0.v0 main_call0.v5 (broadcastInDim S4096x1 ![0] bcast_S4096_S4096x1_0),
    TRef.nullary main_call0.c_1 (constantI S1 32 49999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_v0) main_call0.v5 main_call0.v13 (fun x i => Host.gather gather_S50000x300_S4096x1_S4096x300_1_0_n_n_0_1_1300 x i),
    TRef.unary main_call0.v12 main_call0.v14 (broadcastInDim S4096x300 ![0] bcast_S4096_S4096x300_0),
    TRef.nullary main_call0.cst (constant S_ .f32 0x7FC00000#32),
    TRef.unary main_call0.cst main_call0.v15 (broadcastInDim S4096x300 ![] bcast_S_S4096x300),
    TRef.ternary main_call0.v14 main_call0.v13 main_call0.v15 main_call0.v16 select,
    binary main_v1 main_arg2 main_v2 ((fun l r => Host.dotGeneral dot_S4096x300_S50000x300_S4096x50000_1_1_0_0_n_n none l r) : (⟨S4096x300, .f32⟩ : BufTy).Contents (Elt F) → (⟨S50000x300, .f32⟩ : BufTy).Contents (Elt F) → (⟨S4096x50000, .f32⟩ : BufTy).Contents (Elt F)) ]

set_option maxRecDepth 4096 in
/-- @main is that straight line: the two functions' bodies unfolded at their calls, the sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub ..⟩

/-- Every buffer ends at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
/-- The fold read at the result buffer: the `dot_general` of the looked-up rows and `w_dec`. -/
theorem result_eq (V : Valuation τ sig (Elt F)) :
    after ops V (main_v2 : DevRef τ sig)
      = Host.dotGeneral dot_S4096x300_S50000x300_S4096x50000_1_1_0_0_n_n none
          (Cert.Embedding.rows (V (main_arg0 : DevRef τ sig)) (V (main_arg1 : DevRef τ sig))) (V (main_arg2 : DevRef τ sig)) := by
  after_results
  simp only [TRef.ofBuf, TRef.toBuf, cast_eq]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl

/-- THE REFERENCE'S RUN: it terminates with the result at the `dot_general` of the looked-up rows and `w_dec`, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = Host.dotGeneral dot_S4096x300_S50000x300_S4096x50000_1_1_0_0_n_n none
              (Cert.Embedding.rows (m ((c.tc : Thread nD τ).loc main_arg0)) (m ((c.tc : Thread nD τ).loc main_arg1)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (result_eq _), (h c main_arg0).trans (arg0_eq _),
      (h c main_arg1).trans (arg1_eq _), (h c main_arg2).trans (arg2_eq _)⟩)
    (run_fold m ρ)

end Cert.ReferenceIdeal.RefRun

end
-- ==== Proof.lean ====
/-
  The certificate: an embedding lookup followed by a projection onto the vocabulary, `take(w_encᵀ, x) · w_decᵀ`.

  The kernel's program looks the 4096 token ids up in `w_encᵀ` exactly as the reference does (`Embedding.rows`), rounds
  the rows and `w_dec` to bf16, pads both with zeros (the contracted axis from 300 to 384, `w_dec`'s rows from 50000 to
  51200), multiplies block by block on a 16 × 4 grid — each point one 1024 × 3200 block of `hp · wpᵀ`, the matrix unit's
  product into a zero accumulator — and keeps the first 50000 columns; the reference is one `dot_general` of the rows and
  `w_dec`, contracting the last axis of both.  At the ideal instance the roundings are the identity, the padded terms of
  each entry's sum are `0 * 0`, and the blocks tile the output, so both results are `∑ k < 300, rows (b, k) * w_dec (v, k)`
  at every `(b, v)` (`Bridge.kernelValue_eq`): no finiteness is used, and the precondition is never opened.

  The three frames: the two kernel programs' are the generated frame proofs; the reference's is its run
  (`RefRun.run`) with the result dropped.  The ideal pass rewrote nothing, so `preserves` is `True`.
-/
import proofs.«118361_j78365973283493_2_alg».proof.Defs
import proofs.«118361_j78365973283493_2_alg».proof.Proof.Gen.Kernel
import proofs.«118361_j78365973283493_2_alg».proof.Proof.Gen.Kernel.Frame
import proofs.«118361_j78365973283493_2_alg».proof.Proof.Gen.KernelIdeal
import proofs.«118361_j78365973283493_2_alg».proof.Proof.Gen.KernelIdeal.Frame
import proofs.«118361_j78365973283493_2_alg».proof.Proof.Gen.ReferenceIdeal
import proofs.«118361_j78365973283493_2_alg».proof.Proof.Gen.Pre_finite_inputs
import proofs.«118361_j78365973283493_2_alg».proof.Proof.Bridge
import proofs.«118361_j78365973283493_2_alg».proof.Proof.KernelValue
import proofs.«118361_j78365973283493_2_alg».proof.Proof.RefRun

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with `∑ k < 300, rows (b, k) * w_dec (v, k)` at every `(b, v)`: the kernel's program at
    `Bridge.kernelValue` of the looked-up rows and `w_dec` (`KernelValue.run`), the reference at their `dot_general`
    (`RefRun.run`), which are one array (`Bridge.kernelValue_eq`), from memories that agree on the arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact (Cert.Bridge.kernelValue_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
